-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S16x16 : Shape := ⟨2, ![16, 16]⟩
abbrev S16 : Shape := ⟨1, ![16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x4096 .f32) (main_arg1 : FVec F S16x16 .f32) (main_arg2 : FVec F S16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S4x4096x4096 : Shape := ⟨3, ![4, 4096, 4096]⟩
abbrev S16x16 : Shape := ⟨2, ![16, 16]⟩
abbrev S16 : Shape := ⟨1, ![16]⟩
abbrev S16x1 : Shape := ⟨2, ![16, 1]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S262144x256 : Shape := ⟨2, ![262144, 256]⟩
abbrev S4096x256 : Shape := ⟨2, ![4096, 256]⟩

abbrev nBuf : Space → Nat
  | .hbm => 23
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S16x16, .f32⟩
  | .hbm, ⟨2, _⟩ => ⟨S16, .f32⟩
  | .hbm, ⟨3, _⟩ => ⟨S16x1, .f32⟩
  | .hbm, ⟨4, _⟩ => ⟨S16x16, .f32⟩
  | .hbm, ⟨5, _⟩ => ⟨S16x16, .f32⟩
  | .hbm, ⟨6, _⟩ => ⟨S16x16, .f32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S16x16, .f32⟩
  | .hbm, ⟨14, _⟩ => ⟨S16x1x16x1, .f32⟩
  | .hbm, ⟨15, _⟩ => ⟨S1x16x1x16, .f32⟩
  | .hbm, ⟨16, _⟩ => ⟨S16x16x16x16, .f32⟩
  | .hbm, ⟨17, _⟩ => ⟨S16x16x16x16, .f32⟩
  | .hbm, ⟨18, _⟩ => ⟨S16x16x16x16, .f32⟩
  | .hbm, ⟨19, _⟩ => ⟨S256x256, .f32⟩
  | .hbm, ⟨20, _⟩ => ⟨S262144x256, .f32⟩
  | .hbm, ⟨21, _⟩ => ⟨S262144x256, .f32⟩
  | .hbm, ⟨22, _⟩ => ⟨S4x4096x4096, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  transposes_S16x16_S16x16_1_0 : S16x16.Transposes [1, 0] S16x16
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S16x16_S1x16x1x16_1_3 : S16x16.BroadcastsInDim S1x16x1x16 (![1, 3] : Fin 2 → Fin S1x16x1x16.rank)
  bcast_S16x1x16x1_S16x16x16x16_0_1_2_3 : S16x1x16x1.BroadcastsInDim S16x16x16x16 (![0, 1, 2, 3] : Fin 4 → Fin S16x16x16x16.rank)
  bcast_S1x16x1x16_S16x16x16x16_0_1_2_3 : S1x16x1x16.BroadcastsInDim S16x16x16x16 (![0, 1, 2, 3] : Fin 4 → Fin S16x16x16x16.rank)
  shapeCasts_S16x16x16x16_S256x256 : S16x16x16x16.ShapeCasts S256x256
  shapeCasts_S4x4096x4096_S262144x256 : S4x4096x4096.ShapeCasts S262144x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S262144x256_S4x4096x4096 : S262144x256.ShapeCasts S4x4096x4096
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v11) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16x16 : Shape := ⟨2, ![16, 16]⟩
abbrev S16 : Shape := ⟨1, ![16]⟩
abbrev S16x1 : Shape := ⟨2, ![16, 1]⟩
abbrev S4x4096x256x16 : Shape := ⟨4, ![4, 4096, 256, 16]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16x16, .f32⟩
  | .hbm, ⟨2, _⟩ => ⟨S16, .f32⟩
  | .hbm, ⟨3, _⟩ => ⟨S16x1, .f32⟩
  | .hbm, ⟨4, _⟩ => ⟨S16x16, .f32⟩
  | .hbm, ⟨5, _⟩ => ⟨S16x16, .f32⟩
  | .hbm, ⟨6, _⟩ => ⟨S4x4096x256x16, .f32⟩
  | .hbm, ⟨7, _⟩ => ⟨S4x4096x256x16, .f32⟩
  | .hbm, ⟨8, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S16x1_S16x16_0_1 : S16x1.BroadcastsInDim S16x16 (![0, 1] : Fin 2 → Fin S16x16.rank)
  shapeCasts_S4x4096x4096_S4x4096x256x16 : S4x4096x4096.ShapeCasts S4x4096x256x16
  shapeCasts_S4x4096x256x16_S4x4096x4096 : S4x4096x256x16.ShapeCasts S4x4096x4096
  dot_S4x4096x256x16_S16x16_S4x4096x256x16_3_1_012_0_n_n_wf : DotDims.WF S4x4096x256x16 S16x16 S4x4096x256x16 [3] [1] [0, 1, 2] [0] [] []

variable [Facts₀]

def dot_S4x4096x256x16_S16x16_S4x4096x256x16_3_1_012_0_n_n : DotDims S4x4096x256x16 S16x16 S4x4096x256x16 where
  lhsContracting := [3]
  rhsContracting := [1]
  lhsNonContracting := [0, 1, 2]
  rhsNonContracting := [0]
  lhsBatch := []
  rhsBatch := []
  wf := dot_S4x4096x256x16_S16x16_S4x4096x256x16_3_1_012_0_n_n_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.KernelBlocks.lean ====
/-
  The kernel's output array after the region.

  The region multiplies a 262144 x 256 array A (64 row blocks of 4096 rows) by a 256 x 256 matrix B staged whole:
  at grid point t the body loads rows 4096 t .. 4096 t + 4095 of A and all of B, forms their matrix product into a zero
  accumulator, and stores it as rows 4096 t .. 4096 t + 4095 of the output.  A row of the product depends only on the
  same row of A, so every point writes back a block of ONE whole-array function: entry (r, c) is the sum over k < 256 of
  A(r, k) * B(k, c).  The 64 row blocks tile the output, so the output array ends as that function.
-/
import proofs.«151064_j37160057045074_2_alg».proof.Proof.Gen.KernelIdeal.Frame
import proofs.«151064_j37160057045074_2_alg».proof.Proof.LibMatmulSum
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The kernel's record of dimension numbers spells a plain product: the left operand contracted on its axis 1, the right
    on its axis 0, 256 terms. -/
theorem plain : Cert.LibMatmulSum.Plain (n := 4096) (K := 256) (w := 256) dot_S4096x256_S256x256_S4096x256_1_0_0_1_n_n where
  rank := rfl
  size := rfl
  l0 := fun i q => by
    unfold DotDims.lhsIdx
    rw [dif_neg (show ¬(0 : Fin S4096x256.rank) ∈ dot_S4096x256_S256x256_S4096x256_1_0_0_1_n_n.lhsBatch by decide),
      dif_pos (show (0 : Fin S4096x256.rank) ∈ dot_S4096x256_S256x256_S4096x256_1_0_0_1_n_n.lhsNonContracting by decide)]
    rfl
  l1 := fun i q => dot_S4096x256_S256x256_S4096x256_1_0_0_1_n_n.lhsIdx_val_of_single rfl i q
  r0 := fun i q => dot_S4096x256_S256x256_S4096x256_1_0_0_1_n_n.rhsIdx_val_of_single rfl i q
  r1 := fun i q => by
    unfold DotDims.rhsIdx
    rw [dif_neg (show ¬(1 : Fin S256x256.rank) ∈ dot_S4096x256_S256x256_S4096x256_1_0_0_1_n_n.rhsBatch by decide),
      dif_pos (show (1 : Fin S256x256.rank) ∈ dot_S4096x256_S256x256_S4096x256_1_0_0_1_n_n.rhsNonContracting by decide)]
    rfl

/-- The body's one stored value at entry (p, q): the changes of float format are the identity on the extended reals, the
    casts are to the same shape, and the product into the zero accumulator is the sum over the 256 contracted positions. -/
theorem pay_at (x0 : Vec Ideal S4096x256 .f32) (x1 : Vec Ideal S256x256 .f32) (p : Fin 4096) (q : Fin 256) :
    k0_pay1 x0 x1 (ix2 p q) = ∑ k : Fin 256, x0 (ix2 p k) * x1 (ix2 k q) := by
  unfold k0_pay1
  rw [shapeCast_self, shapeCast_self]
  exact Cert.LibMatmulSum.matmul_zero_at plain none _ _ p q

/-- The product of a 262144 x 256 array and a 256 x 256 matrix, entry by entry. -/
def prod (A : S262144x256.Idx → EReal) (B : S256x256.Idx → EReal) : S262144x256.Idx → EReal :=
  fun i => ∑ k : Fin 256, A (ix2 (i 0) k) * B (ix2 k (i 1))

/-- A sum of 256 products of entries of the two arrays, at positions named by the two index families. -/
def dotAt (A : S262144x256.Idx → EReal) (B : S256x256.Idx → EReal) (f : Fin 256 → S262144x256.Idx) (g : Fin 256 → S256x256.Idx) : EReal :=
  ∑ k : Fin 256, A (f k) * B (g k)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the 64 grid points: the input row block moves with the output's, the matrix is always
    block (0, 0), and the output's row block index is below 64. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every row block is some point's. -/
theorem idx_onto : ∀ (q0 : Fin 64), ∃ t : Fin cfg0.N, win0_2.index t = ![q0.val, 0] :=
  (by decide +kernel : ∀ (q0 : Fin 64), ∃ t : Fin grid0.N, win0_2.index t = ![q0.val, 0])

/-- What point `t` writes back is block `t` of the product of the two staged arrays as the region finds them. -/
theorem flushed_eq (c : Dev nD) (t : Fin cfg0.N) :
    (dats m 0 c).flushed 2 t = ((cfg0.win 2).blk t).view.read (Elt Ideal) (prod (V m c main_v11) (V m c main_v10)) := by
  show (cfg0.win 2).cut (grid0.coords t) ((dats m 0 c).after 2 t) = _
  rw [after0_2]
  unfold out0_2
  rw [View.canon_unit_zero zeros]
  simp only [View.ld_unit_zero (S := S4096x256) zeros, View.ld_unit_zero (S := S256x256) zeros]
  obtain ⟨e0, e1, e2, e3, e4, e5⟩ := idx_facts t
  funext j
  obtain ⟨p, q, rfl⟩ : ∃ (p : Fin 4096) (q : Fin 256), j = ix2 p q := ⟨j 0, j 1, eq_ix2 j⟩
  refine (pay_at (iblk m c 0 t) (iblk m c 1 t) p q).trans ?_
  show dotAt (V m c main_v11) (V m c main_v10) (fun k => ((cfg0.win 0).blk t).view.emb (ix2 p k)) (fun k => ((cfg0.win 1).blk t).view.emb (ix2 k q))
    = dotAt (V m c main_v11) (V m c main_v10) (fun k => ix2 ((((cfg0.win 2).blk t).view.emb (ix2 p q)) 0) k) (fun k => ix2 k ((((cfg0.win 2).blk t).view.emb (ix2 p q)) 1))
  have h0 : (fun k : Fin 256 => ((cfg0.win 0).blk t).view.emb (ix2 p k)) = fun k => ix2 ((((cfg0.win 2).blk t).view.emb (ix2 p q)) 0) k := by
    funext k a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 256 + 1 * k.val = k.val; omega
  have h1 : (fun k : Fin 256 => ((cfg0.win 1).blk t).view.emb (ix2 k q)) = fun k => ix2 k ((((cfg0.win 2).blk t).view.emb (ix2 p q)) 1) := by
    funext k a; apply Fin.ext
    match a with
    | ⟨0, _⟩ => show win0_1.index t (0 : Fin 2) * 256 + 1 * k.val = k.val; omega
    | ⟨1, _⟩ => show win0_1.index t (1 : Fin 2) * 256 + 1 * q.val = win0_2.index t (1 : Fin 2) * 256 + 1 * q.val; omega
  rw [h0, h1]
  rfl

/-- An index of the output array is in point `t`'s block iff each coordinate is in the block's range on its axis. -/
theorem mem_blk (t : Fin cfg0.N) (i : S262144x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v12).slice (win0_2.rect t)).set ↔ _
  rw [View.set_slice_whole, Rect.mem_set_unit]
  exact Iff.rfl

/-- Row r lies in the block of the point whose row block index is r / 4096: the 64 blocks cover the output. -/
theorem cover (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

/-- The output array after the region is the product of the two staged arrays. -/
theorem final (c : Dev nD) : (dats m 0 c).arrAt 2 cfg0.N = prod (V m c main_v11) (V m c main_v10) :=
  (dats m 0 c).arrAt_eq_of_cover 2 _ (fun t _ => flushed_eq m c t) cover

end Cert.KernelIdeal.Blocks

end
-- ==== Proof.HostSides.lean ====
/-
  The host operations around the region, read at an index.

  Before the region the host builds the 256 x 256 matrix B = kron(I, M^T): with M(j, i) = hadamard(j, i) * signs(j) and
  I the 16 x 16 identity pattern (one where the row index is the column index, zero elsewhere),
      B(16 a + i, 16 b + j) = I(a, b) * M(j, i),
  and recasts x to the 262144 x 256 array A: row r, column k is x(r / 65536, r / 16 % 4096, 256 (r % 16) + k).
  After the region it recasts the 262144 x 256 output back to 4 x 4096 x 4096.
-/
import proofs.«151064_j37160057045074_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSides

open Cert.KernelIdeal Cert.KernelIdeal.Gen Idealize.ShloMosaic Idealize.ShloMosaic.TcCoe Idealize.SL.Sem
open Idealize.ShloMosaic.StableHlo Idealize.ShloMosaic.ValueIdx

/-! ## The pieces as functions of the arguments -/

/-- The identity pattern: the comparison of the row index with the column index, as a float. -/
def eye : FVec Ideal S16x16 .f32 :=
  uitofp (F := Ideal) .f32 (cmpi .eq (addi (iotaInDim S16x16 32 0) (broadcastInDim S16x16 ![] bcast_S_S16x16 (constantI S_ 32 0#32))) (iotaInDim S16x16 32 1))

/-- The scaled matrix M(j, i) = hadamard(j, i) * signs(j). -/
def scaled (h : FVec Ideal S16x16 .f32) (s : FVec Ideal S16 .f32) : FVec Ideal S16x16 .f32 :=
  mulf h (broadcastInDim S16x16 ![0, 1] bcast_S16x1_S16x16_0_1 (broadcastInDim S16x1 ![0] bcast_S16_S16x1_0 s))

/-- The 256 x 256 matrix the region multiplies by: the Kronecker product of the identity pattern with M transposed. -/
def wmat (h : FVec Ideal S16x16 .f32) (s : FVec Ideal S16 .f32) : FVec Ideal S256x256 .f32 :=
  shapeCast S256x256
    (mulf
      (broadcastInDim S16x16x16x16 ![0, 1, 2, 3] bcast_S16x1x16x1_S16x16x16x16_0_1_2_3 (broadcastInDim S16x1x16x1 ![0, 2] bcast_S16x16_S16x1x16x1_0_2 eye))
      (broadcastInDim S16x16x16x16 ![0, 1, 2, 3] bcast_S1x16x1x16_S16x16x16x16_0_1_2_3 (broadcastInDim S1x16x1x16 ![1, 3] bcast_S16x16_S1x16x1x16_1_3
        (transpose S16x16 [1, 0] (scaled h s) transposes_S16x16_S16x16_1_0))))
    shapeCasts_S16x16x16x16_S256x256

/-! ## Read at an index -/

/-- The comparison word, over the 256 pairs of indices. -/
theorem eye_bits : ∀ a b : Fin 16, (IntOp.cmpi .eq (IntOp.addi (BitVec.ofNat 32 a.val) 0#32) (BitVec.ofNat 32 b.val)).toNat = if a.val = b.val then 1 else 0 := by
  decide +kernel

theorem eye_at (a b : Fin 16) : eye (ix2 a b) = if a.val = b.val then (1 : EReal) else 0 := by
  show (((IntOp.cmpi .eq (IntOp.addi (BitVec.ofNat 32 a.val) 0#32) (BitVec.ofNat 32 b.val)).toNat : ℝ) : EReal) = _
  rw [eye_bits a b]
  by_cases h : a.val = b.val
  · rw [if_pos h, if_pos h, Nat.cast_one, EReal.coe_one]
  · rw [if_neg h, if_neg h, Nat.cast_zero, EReal.coe_zero]

theorem scaled_at (h : FVec Ideal S16x16 .f32) (s : FVec Ideal S16 .f32) (j i : Fin 16) :
    scaled h s (ix2 j i) = h (ix2 j i) * s (ix1 j) := by
  unfold scaled
  rw [mulf_apply,
    broadcastInDim_apply _ bcast_S16x1_S16x16_0_1 _ (ix2 j i) (ix2 j (0 : Fin 1)) (fun a => match a with
      | ⟨0, _⟩ => by show j.val = if (16 : Nat) = 1 then 0 else j.val; rw [if_neg (by decide)]
      | ⟨1, _⟩ => by show 0 = if (1 : Nat) = 1 then 0 else i.val; rw [if_pos rfl]),
    broadcastInDim_apply _ bcast_S16_S16x1_0 _ (ix2 j (0 : Fin 1)) (ix1 j) (fun a => match a with
      | ⟨0, _⟩ => by show j.val = if (16 : Nat) = 1 then 0 else j.val; rw [if_neg (by decide)])]

theorem transpose_at (x : FVec Ideal S16x16 .f32) (i j : Fin 16) :
    transpose S16x16 [1, 0] x transposes_S16x16_S16x16_1_0 (ix2 i j) = x (ix2 j i) :=
  transpose_apply [1, 0] x transposes_S16x16_S16x16_1_0 (ix2 i j) (ix2 j i) (fun b => match b with
    | ⟨0, _⟩ => rfl
    | ⟨1, _⟩ => rfl)

/-- A 16 x 16 array placed on axes 0 and 2 of a 16 x 16 x 16 x 16 array. -/
theorem outer_at {α : Type} (e : S16x16.Idx → α) (a i b j : Fin 16) :
    broadcastInDim S16x16x16x16 ![0, 1, 2, 3] bcast_S16x1x16x1_S16x16x16x16_0_1_2_3 (broadcastInDim S16x1x16x1 ![0, 2] bcast_S16x16_S16x1x16x1_0_2 e) (ix4 a i b j) = e (ix2 a b) := by
  rw [broadcastInDim_apply _ bcast_S16x1x16x1_S16x16x16x16_0_1_2_3 _ (ix4 a i b j) (ix4 a (0 : Fin 1) b (0 : Fin 1)) (fun ax => match ax with
      | ⟨0, _⟩ => by show a.val = if (16 : Nat) = 1 then 0 else a.val; rw [if_neg (by decide)]
      | ⟨1, _⟩ => by show 0 = if (1 : Nat) = 1 then 0 else i.val; rw [if_pos rfl]
      | ⟨2, _⟩ => by show b.val = if (16 : Nat) = 1 then 0 else b.val; rw [if_neg (by decide)]
      | ⟨3, _⟩ => by show 0 = if (1 : Nat) = 1 then 0 else j.val; rw [if_pos rfl]),
    broadcastInDim_apply _ bcast_S16x16_S16x1x16x1_0_2 _ (ix4 a (0 : Fin 1) b (0 : Fin 1)) (ix2 a b) (fun ax => match ax with
      | ⟨0, _⟩ => by show a.val = if (16 : Nat) = 1 then 0 else a.val; rw [if_neg (by decide)]
      | ⟨1, _⟩ => by show b.val = if (16 : Nat) = 1 then 0 else b.val; rw [if_neg (by decide)])]

/-- A 16 x 16 array placed on axes 1 and 3 of a 16 x 16 x 16 x 16 array. -/
theorem inner_at {α : Type} (w : S16x16.Idx → α) (a i b j : Fin 16) :
    broadcastInDim S16x16x16x16 ![0, 1, 2, 3] bcast_S1x16x1x16_S16x16x16x16_0_1_2_3 (broadcastInDim S1x16x1x16 ![1, 3] bcast_S16x16_S1x16x1x16_1_3 w) (ix4 a i b j) = w (ix2 i j) := by
  rw [broadcastInDim_apply _ bcast_S1x16x1x16_S16x16x16x16_0_1_2_3 _ (ix4 a i b j) (ix4 (0 : Fin 1) i (0 : Fin 1) j) (fun ax => match ax with
      | ⟨0, _⟩ => by show 0 = if (1 : Nat) = 1 then 0 else a.val; rw [if_pos rfl]
      | ⟨1, _⟩ => by show i.val = if (16 : Nat) = 1 then 0 else i.val; rw [if_neg (by decide)]
      | ⟨2, _⟩ => by show 0 = if (1 : Nat) = 1 then 0 else b.val; rw [if_pos rfl]
      | ⟨3, _⟩ => by show j.val = if (16 : Nat) = 1 then 0 else j.val; rw [if_neg (by decide)]),
    broadcastInDim_apply _ bcast_S16x16_S1x16x1x16_1_3 _ (ix4 (0 : Fin 1) i (0 : Fin 1) j) (ix2 i j) (fun ax => match ax with
      | ⟨0, _⟩ => by show i.val = if (16 : Nat) = 1 then 0 else i.val; rw [if_neg (by decide)]
      | ⟨1, _⟩ => by show j.val = if (16 : Nat) = 1 then 0 else j.val; rw [if_neg (by decide)])]

/-- Entry (k, c) of the 256 x 256 matrix: the identity pattern at the two tiles times M at the two lanes, transposed. -/
theorem wmat_at (h : FVec Ideal S16x16 .f32) (s : FVec Ideal S16 .f32) (k c : Fin 256) :
    wmat h s (ix2 k c)
      = eye (ix2 (⟨k.val / 16, by omega⟩ : Fin 16) (⟨c.val / 16, by omega⟩ : Fin 16))
        * (h (ix2 (⟨c.val % 16, by omega⟩ : Fin 16) (⟨k.val % 16, by omega⟩ : Fin 16)) * s (ix1 (⟨c.val % 16, by omega⟩ : Fin 16))) := by
  unfold wmat
  rw [shapeCast_apply _ shapeCasts_S16x16x16x16_S256x256 (ix2 k c)
      (ix4 (⟨k.val / 16, by omega⟩ : Fin 16) (⟨k.val % 16, by omega⟩ : Fin 16) (⟨c.val / 16, by omega⟩ : Fin 16) (⟨c.val % 16, by omega⟩ : Fin 16))
      (by rewrite [Shape.rowMajor_val_four, Shape.rowMajor_val_two]
          show ((k.val / 16 * 16 + k.val % 16) * 16 + c.val / 16) * 16 + c.val % 16 = k.val * 256 + c.val
          omega),
    mulf_apply, outer_at, inner_at, transpose_at, scaled_at]

/-- Entry (r, k) of x recast to 262144 x 256. -/
theorem xflat_at (x : FVec Ideal S4x4096x4096 .f32) (r : Fin 262144) (k : Fin 256) :
    shapeCast S262144x256 x shapeCasts_S4x4096x4096_S262144x256 (ix2 r k)
      = x (ix3 (⟨r.val / 65536, by omega⟩ : Fin 4) (⟨r.val / 16 % 4096, by omega⟩ : Fin 4096) (⟨r.val % 16 * 256 + k.val, by omega⟩ : Fin 4096)) :=
  shapeCast_apply x shapeCasts_S4x4096x4096_S262144x256 (ix2 r k) _
    (by rewrite [Shape.rowMajor_val_three, Shape.rowMajor_val_two]
        show (r.val / 65536 * 4096 + r.val / 16 % 4096) * 4096 + (r.val % 16 * 256 + k.val) = r.val * 256 + k.val
        omega)

/-! ## What the region finds, and what the tail leaves -/

variable (m : (ℓ : Loc nD τ sig) → Buf (Elt Ideal) ℓ)

/-- The region's left array is x recast. -/
theorem V_v11 (c : Dev nD) : (V m c main_v11 : S262144x256.Idx → EReal)
    = shapeCast S262144x256 (m ((c : Thread nD τ).loc main_arg0)) shapeCasts_S4x4096x4096_S262144x256 := by
  dsimp only [Gen.V, Gen.V0]
  simp only [Gen.hostOps0, Gen.hostOps0_1, Gen.hostOps0_2, List.flatten_cons, List.flatten_nil, List.append_nil, List.cons_append,
    List.nil_append]
  after_results
  rfl

/-- The region's right array is the Kronecker matrix of hadamard and signs. -/
theorem V_v10 (c : Dev nD) : (V m c main_v10 : S256x256.Idx → EReal)
    = wmat (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  after_results
  rfl

/-- The program's result is the region's output array recast to 4 x 4096 x 4096. -/
theorem tail_eq (c : Dev nD) :
    (Pipeline.afterTail₀ cfgs (dats m) 0 (V0 m) [hostOps1] c main_v13 : S4x4096x4096.Idx → EReal)
      = shapeCast S4x4096x4096 ((dats m 0 c).arrAt 2 cfg0.N) shapeCasts_S262144x256_S4x4096x4096 := by
  unfold Pipeline.afterTail₀
  show StableHlo.after hostOps1 _ (Proc.devRef .tc main_v13) = _
  after_results
  rw [Pipeline.withArrays_arr spec0 launch0.win.arr_inj c _ _ 2]
  rfl

end Cert.KernelIdeal.HostSides

end
-- ==== Proof.BlockDiagSum.lean ====
/-
  A sum against a block-diagonal matrix keeps one diagonal block.

  Positions k < 256 are split as k = 16 a + i into a tile a < 16 and a lane i < 16.  A weight that carries the factor
  "tile a is the tile q" (one on tile q, zero elsewhere) kills every tile but q: on the extended reals zero times anything
  is zero and anything times zero is zero, so no finiteness is needed, and the sum over 256 positions is the sum over the
  16 lanes of tile q.
-/
import Mathlib.Data.EReal.Operations
import Mathlib.Algebra.BigOperators.Fin

noncomputable section

namespace Cert.BlockDiagSum

/-- Position `16 a + i` from the tile `a` and the lane `i`. -/
def tileEquiv : Fin 16 × Fin 16 ≃ Fin 256 where
  toFun p := ⟨p.1.val * 16 + p.2.val, by have := p.1.isLt; have := p.2.isLt; omega⟩
  invFun k := (⟨k.val / 16, by have := k.isLt; omega⟩, ⟨k.val % 16, by omega⟩)
  left_inv p := by
    have h1 := p.1.isLt
    have h2 := p.2.isLt
    refine Prod.ext (Fin.ext ?_) (Fin.ext ?_)
    · show (p.1.val * 16 + p.2.val) / 16 = p.1.val
      omega
    · show (p.1.val * 16 + p.2.val) % 16 = p.2.val
      omega
  right_inv k := Fin.ext (by show k.val / 16 * 16 + k.val % 16 = k.val; omega)

theorem tileEquiv_val (a i : Fin 16) : (tileEquiv (a, i)).val = a.val * 16 + i.val := rfl

/-- The sum over all 256 positions of `f k * (e k * W k)`, where `e` is one on tile `q` and zero on the others,
    is the sum over the lanes of tile `q` of `f * W`. -/
theorem sum_blockdiag (f e W : Fin 256 → EReal) (q : Fin 16)
    (he : ∀ k : Fin 256, e k = if k.val / 16 = q.val then 1 else 0) :
    ∑ k : Fin 256, f k * (e k * W k) = ∑ i : Fin 16, f (tileEquiv (q, i)) * W (tileEquiv (q, i)) := by
  rw [← Equiv.sum_comp tileEquiv, Fintype.sum_prod_type, Finset.sum_eq_single q]
  · refine Finset.sum_congr rfl fun i _ => ?_
    have hq : (tileEquiv (q, i)).val / 16 = q.val := by
      rw [tileEquiv_val]
      have := i.isLt
      omega
    rw [he, if_pos hq, one_mul]
  · intro a _ ha
    refine Finset.sum_eq_zero fun i _ => ?_
    have hq : ¬ (tileEquiv (a, i)).val / 16 = q.val := by
      rw [tileEquiv_val]
      have := i.isLt
      intro h
      exact ha (Fin.ext (by omega))
    rw [he, if_neg hq, zero_mul, mul_zero]
  · intro h
    exact absurd (Finset.mem_univ q) h

end Cert.BlockDiagSum

end
-- ==== Proof.Spec.lean ====
/-
  The result both programs compute, as one function of the three argument arrays.

  The last axis of x (4096 long) is cut into 256 tiles of 16 consecutive entries; every tile is multiplied by the same
  16 x 16 matrix, whose row j is row j of `hadamard` scaled by `signs j`.  So the result at (b, r, d), with d = 16 t + j,
  is the sum over i < 16 of  x(b, r, 16 t + i) * (hadamard(j, i) * signs(j)).
-/
import Idealize.ShloMosaic.PureOps.Ideal
import Idealize.ShloMosaic.Lib.ValueIdx

noncomputable section

namespace Cert.Spec

open Idealize.ShloMosaic Idealize.ShloMosaic.ValueIdx

/-- The result at the coordinates (b, r, d): tile d / 16 of row (b, r) of x against row d % 16 of the scaled matrix. -/
def Gat (x : (⟨3, ![4, 4096, 4096]⟩ : Shape).Idx → EReal) (h : (⟨2, ![16, 16]⟩ : Shape).Idx → EReal)
    (s : (⟨1, ![16]⟩ : Shape).Idx → EReal) (b : Fin 4) (r : Fin 4096) (d : Fin 4096) : EReal :=
  ∑ i : Fin 16, x (ix3 b r ⟨d.val / 16 * 16 + i.val, by have := d.isLt; have := i.isLt; omega⟩)
    * (h (ix2 ⟨d.val % 16, by omega⟩ i) * s (ix1 ⟨d.val % 16, by omega⟩))

/-- The whole result array. -/
def G (x : (⟨3, ![4, 4096, 4096]⟩ : Shape).Idx → EReal) (h : (⟨2, ![16, 16]⟩ : Shape).Idx → EReal)
    (s : (⟨1, ![16]⟩ : Shape).Idx → EReal) : (⟨3, ![4, 4096, 4096]⟩ : Shape).Idx → EReal :=
  fun i => Gat x h s (i 0) (i 1) (i 2)

theorem G_ix3 (x : (⟨3, ![4, 4096, 4096]⟩ : Shape).Idx → EReal) (h : (⟨2, ![16, 16]⟩ : Shape).Idx → EReal)
    (s : (⟨1, ![16]⟩ : Shape).Idx → EReal) (b : Fin 4) (r : Fin 4096) (d : Fin 4096) :
    G x h s (ix3 b r d) = Gat x h s b r d := rfl

end Cert.Spec

end
-- ==== Proof.KernelIsG.lean ====
/-
  The kernel's program computes G.

  With A the recast of x (262144 x 256) and B the Kronecker matrix (256 x 256), the region leaves A * B and the tail
  recasts it: the result at (b, r, d) is entry (R, C) of A * B with R = 16 (4096 b + r) + d / 256 and C = d % 256, that is
      sum over k < 256 of  x(b, r, 256 (d / 256) + k) * (I(k / 16, C / 16) * (hadamard(C % 16, k % 16) * signs(C % 16))).
  The identity pattern keeps the 16 positions of tile C / 16 only, and 256 (d / 256) + 16 (C / 16) = 16 (d / 16),
  C % 16 = d % 16: the sum is G's.
-/
import proofs.«151064_j37160057045074_2_alg».proof.Proof.KernelBlocks
import proofs.«151064_j37160057045074_2_alg».proof.Proof.HostSides
import proofs.«151064_j37160057045074_2_alg».proof.Proof.BlockDiagSum
import proofs.«151064_j37160057045074_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx
open Cert.KernelIdeal.Blocks Cert.KernelIdeal.HostSides Cert.BlockDiagSum

/-- The product of x recast with the Kronecker matrix, recast back, is G. -/
theorem result_eq_G (x : FVec Ideal S4x4096x4096 .f32) (h : FVec Ideal S16x16 .f32) (s : FVec Ideal S16 .f32) :
    shapeCast S4x4096x4096 (prod (shapeCast S262144x256 x shapeCasts_S4x4096x4096_S262144x256) (wmat h s)) shapeCasts_S262144x256_S4x4096x4096
      = Cert.Spec.G x h s := by
  funext i
  obtain ⟨b, r, d, rfl⟩ : ∃ (b : Fin 4) (r : Fin 4096) (d : Fin 4096), i = ix3 b r d := ⟨i 0, i 1, i 2, eq_ix3 i⟩
  have hb := b.isLt
  have hr := r.isLt
  have hd := d.isLt
  obtain ⟨R, hR⟩ : ∃ R : ℕ, R = (b.val * 4096 + r.val) * 16 + d.val / 256 := ⟨_, rfl⟩
  obtain ⟨C, hC⟩ : ∃ C : ℕ, C = d.val % 256 := ⟨_, rfl⟩
  have hR' : R < 262144 := by omega
  have hC' : C < 256 := by omega
  rw [Cert.Spec.G_ix3,
    shapeCast_apply _ shapeCasts_S262144x256_S4x4096x4096 (ix3 b r d) (ix2 (⟨R, hR'⟩ : Fin 262144) (⟨C, hC'⟩ : Fin 256))
      (by rewrite [Shape.rowMajor_val_two, Shape.rowMajor_val_three]
          show R * 256 + C = (b.val * 4096 + r.val) * 4096 + d.val
          omega)]
  have key := sum_blockdiag
    (fun k : Fin 256 => x (ix3 (⟨R / 65536, by omega⟩ : Fin 4) (⟨R / 16 % 4096, by omega⟩ : Fin 4096) (⟨R % 16 * 256 + k.val, by omega⟩ : Fin 4096)))
    (fun k : Fin 256 => eye (ix2 (⟨k.val / 16, by omega⟩ : Fin 16) (⟨C / 16, by omega⟩ : Fin 16)))
    (fun k : Fin 256 => h (ix2 (⟨C % 16, by omega⟩ : Fin 16) (⟨k.val % 16, by omega⟩ : Fin 16)) * s (ix1 (⟨C % 16, by omega⟩ : Fin 16)))
    (⟨C / 16, by omega⟩ : Fin 16)
    (fun k => eye_at _ _)
  refine (Finset.sum_congr rfl fun k _ => ?_).trans (key.trans ?_)
  · show shapeCast S262144x256 x shapeCasts_S4x4096x4096_S262144x256 (ix2 (⟨R, hR'⟩ : Fin 262144) k) * wmat h s (ix2 k (⟨C, hC'⟩ : Fin 256)) = _
    rw [xflat_at, wmat_at]
  · unfold Cert.Spec.Gat
    refine Finset.sum_congr rfl fun i _ => ?_
    have hi := i.isLt
    show x (ix3 (⟨R / 65536, by omega⟩ : Fin 4) (⟨R / 16 % 4096, by omega⟩ : Fin 4096) (⟨R % 16 * 256 + (C / 16 * 16 + i.val), by omega⟩ : Fin 4096))
        * (h (ix2 (⟨C % 16, by omega⟩ : Fin 16) (⟨(C / 16 * 16 + i.val) % 16, by omega⟩ : Fin 16)) * s (ix1 (⟨C % 16, by omega⟩ : Fin 16)))
      = x (ix3 b r (⟨d.val / 16 * 16 + i.val, by omega⟩ : Fin 4096))
        * (h (ix2 (⟨d.val % 16, by omega⟩ : Fin 16) i) * s (ix1 (⟨d.val % 16, by omega⟩ : Fin 16)))
    have e1 : (⟨R / 65536, by omega⟩ : Fin 4) = b := Fin.ext (by show R / 65536 = b.val; omega)
    have e2 : (⟨R / 16 % 4096, by omega⟩ : Fin 4096) = r := Fin.ext (by show R / 16 % 4096 = r.val; omega)
    have e3 : (⟨R % 16 * 256 + (C / 16 * 16 + i.val), by omega⟩ : Fin 4096) = ⟨d.val / 16 * 16 + i.val, by omega⟩ :=
      Fin.ext (by show R % 16 * 256 + (C / 16 * 16 + i.val) = d.val / 16 * 16 + i.val; omega)
    have e4 : (⟨C % 16, by omega⟩ : Fin 16) = ⟨d.val % 16, by omega⟩ := Fin.ext (by show C % 16 = d.val % 16; omega)
    have e5 : (⟨(C / 16 * 16 + i.val) % 16, by omega⟩ : Fin 16) = i := Fin.ext (by show (C / 16 * 16 + i.val) % 16 = i.val; omega)
    rw [e1, e2, e3, e4, e5]

variable (m : (ℓ : Loc nD τ sig) → Buf (Elt Ideal) ℓ) (ρ : Dev nD → PrngReg)

/-- What the program leaves in its result buffer: G of the three arguments as launched. -/
theorem tail_eq_G (c : Dev nD) :
    (Pipeline.afterTail₀ cfgs (dats m) 0 (V0 m) [hostOps1] c main_v13 : S4x4096x4096.Idx → EReal)
      = Cert.Spec.G (m ((c : Thread nD τ).loc main_arg0)) (m ((c : Thread nD τ).loc main_arg1)) (m ((c : Thread nD τ).loc main_arg2)) := by
  rw [tail_eq, Blocks.final, V_v11, V_v10]
  exact result_eq_G _ _ _

/-- Every weakly fair execution of the program terminates with the result buffer at G of the arguments, the arguments
    unchanged. -/
theorem run : θ_run defs (onTc (τ := τ) (main (F := Ideal))) ⟨m, fun _ => 0, ρ⟩ fun r => ∀ c : Dev nD,
      r.2.mem ((c.tc : Thread nD τ).loc main_v13) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_eq_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefIsG.lean ====
/-
  The reference computes G.

  The reference recasts x to 4 x 4096 x 256 x 16 (tile t, lane i of the last axis is position 16 t + i), contracts the
  lane axis against axis 1 of the scaled matrix hadamard(j, i) * signs(j), and recasts the result back: entry (b, r, d)
  is the contraction at tile d / 16 and output lane d % 16.  Each step is read at an index by the generated lemmas; what
  is left is that the composed index functions are the coordinates G names.
-/
import proofs.«151064_j37160057045074_2_alg».proof.Proof.Gen.ReferenceIdeal.Read
import proofs.«151064_j37160057045074_2_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The reference's result stage is G of the three arguments. -/
theorem val_eq_G (x0 : (⟨S4x4096x4096, .f32⟩ : BufTy).Contents (Elt Ideal)) (x1 : (⟨S16x16, .f32⟩ : BufTy).Contents (Elt Ideal))
    (x2 : (⟨S16, .f32⟩ : BufTy).Contents (Elt Ideal)) :
    val_main_v5 (F := Ideal) x0 x1 x2 = Cert.Spec.G x0 x1 x2 := by
  funext i
  obtain ⟨b, r, d, rfl⟩ : ∃ (b : Fin 4) (r : Fin 4096) (d : Fin 4096), i = ix3 b r d := ⟨i 0, i 1, i 2, eq_ix3 i⟩
  rw [Cert.Spec.G_ix3, val_main_v5_apply, val_main_v4_apply]
  unfold Cert.Spec.Gat
  refine Finset.sum_congr rfl fun k _ => ?_
  have hb := b.isLt
  have hr := r.isLt
  have hd := d.isLt
  have hk := k.isLt
  have e3 : idx_main_v3 (lidx_main_v4 (idx_main_v5 (ix3 b r d)) k) = ix3 b r ⟨d.val / 16 * 16 + k.val, by omega⟩ := by
    funext a; apply Fin.ext
    match a with
    | ⟨0, _⟩ => show ((((((b.val * 4096 + r.val) * 4096 + d.val) / 16777216) * 4096 + ((b.val * 4096 + r.val) * 4096 + d.val) / 4096 % 4096) * 256 + ((b.val * 4096 + r.val) * 4096 + d.val) / 16 % 256) * 16 + k.val) / 16777216 = b.val; omega
    | ⟨1, _⟩ => show ((((((b.val * 4096 + r.val) * 4096 + d.val) / 16777216) * 4096 + ((b.val * 4096 + r.val) * 4096 + d.val) / 4096 % 4096) * 256 + ((b.val * 4096 + r.val) * 4096 + d.val) / 16 % 256) * 16 + k.val) / 4096 % 4096 = r.val; omega
    | ⟨2, _⟩ => show ((((((b.val * 4096 + r.val) * 4096 + d.val) / 16777216) * 4096 + ((b.val * 4096 + r.val) * 4096 + d.val) / 4096 % 4096) * 256 + ((b.val * 4096 + r.val) * 4096 + d.val) / 16 % 256) * 16 + k.val) % 4096 = d.val / 16 * 16 + k.val; omega
  have e2 : ridx_main_v4 (idx_main_v5 (ix3 b r d)) k = ix2 ⟨d.val % 16, by omega⟩ k := by
    funext a; apply Fin.ext
    match a with
    | ⟨0, _⟩ => show ((b.val * 4096 + r.val) * 4096 + d.val) % 16 = d.val % 16; omega
    | ⟨1, _⟩ => rfl
  have e0 : idx_main_v0 (idx_main_v1 (ix2 (⟨d.val % 16, by omega⟩ : Fin 16) k)) = ix1 (⟨d.val % 16, by omega⟩ : Fin 16) := by
    funext a; apply Fin.ext
    match a with
    | ⟨0, _⟩ => rfl
  rw [val_main_v3_apply, val_main_v2_apply, val_main_v1_apply, val_main_v0_apply, e3, e2, e0]
  rfl

end Cert.ReferenceIdeal.RefValue

end
-- ==== Proof.lean ====
/-
  The kernel and its reference compute one function of (x, hadamard, signs) on the extended reals.

  Both cut the last axis of x into tiles of 16 and multiply every tile by the 16 x 16 matrix M^T, M(j, i) =
  hadamard(j, i) * signs(j): the result at (b, r, 16 t + j) is  G = sum over i < 16 of x(b, r, 16 t + i) * M(j, i).
  The reference does it as one contraction over the lane axis of x recast to 4 x 4096 x 256 x 16.  The kernel packs 16
  tiles into a block of 256, multiplies rows of x recast to 262144 x 256 by the block-diagonal 256 x 256 matrix
  kron(I, M^T) on the matrix unit, 4096 rows per grid point, and recasts back.  The off-diagonal blocks carry the factor
  zero, and zero times anything is zero on the extended reals, so of the 256 terms of each entry the 16 of the
  diagonal block remain: no finiteness of the inputs is used.  The changes of float format in the body are the
  identity on the extended reals, so the idealization rewrote nothing and `preserves` is trivial.
  The three frames are the generated ones (the reference's is its generated run with the result dropped).
-/
import proofs.«151064_j37160057045074_2_alg».proof.Defs
import proofs.«151064_j37160057045074_2_alg».proof.Proof.Gen.Kernel
import proofs.«151064_j37160057045074_2_alg».proof.Proof.Gen.Kernel.Skeleton
import proofs.«151064_j37160057045074_2_alg».proof.Proof.Gen.Kernel.Launch
import proofs.«151064_j37160057045074_2_alg».proof.Proof.Gen.Kernel.Points
import proofs.«151064_j37160057045074_2_alg».proof.Proof.Gen.Kernel.Frame
import proofs.«151064_j37160057045074_2_alg».proof.Proof.Gen.KernelIdeal
import proofs.«151064_j37160057045074_2_alg».proof.Proof.Gen.KernelIdeal.Skeleton
import proofs.«151064_j37160057045074_2_alg».proof.Proof.Gen.KernelIdeal.Launch
import proofs.«151064_j37160057045074_2_alg».proof.Proof.Gen.KernelIdeal.Points
import proofs.«151064_j37160057045074_2_alg».proof.Proof.Gen.KernelIdeal.Frame
import proofs.«151064_j37160057045074_2_alg».proof.Proof.Gen.ReferenceIdeal
import proofs.«151064_j37160057045074_2_alg».proof.Proof.Gen.ReferenceIdeal.Run
import proofs.«151064_j37160057045074_2_alg».proof.Proof.Gen.ReferenceIdeal.Read
import proofs.«151064_j37160057045074_2_alg».proof.Proof.Gen.Pre_finite_inputs
import proofs.«151064_j37160057045074_2_alg».proof.Proof.KernelIsG
import proofs.«151064_j37160057045074_2_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the arguments, end with the result buffer at G of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.val_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
